-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S512x512 : Shape := ⟨2, ![512, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S64x512x512 .f32) (main_arg1 : FVec F S512x512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S64x512x512 : Shape := ⟨3, ![64, 512, 512]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S_ : Shape := ⟨0, ![]⟩
abbrev S32768x512 : Shape := ⟨2, ![32768, 512]⟩
abbrev S2048x512 : Shape := ⟨2, ![2048, 512]⟩

abbrev nBuf : Space → Nat
  | .hbm => 19
  | .vmem => 5
  | .smem => 0
  | _ => 0

abbrev bufTy : (tb : Table) → Fin (tcTables nBuf tb) → BufTy
  | .hbm, ⟨0, _⟩ => ⟨S64x512x512, .f32⟩
  | .hbm, ⟨1, _⟩ => ⟨S512x512, .f32⟩
  | .hbm, ⟨2, _⟩ => ⟨S512, .i32⟩
  | .hbm, ⟨3, _⟩ => ⟨S512x1, .i32⟩
  | .hbm, ⟨4, _⟩ => ⟨S1x512, .i32⟩
  | .hbm, ⟨5, _⟩ => ⟨S512x512, .i32⟩
  | .hbm, ⟨6, _⟩ => ⟨S512x512, .i32⟩
  | .hbm, ⟨7, _⟩ => ⟨S512x512, .i32⟩
  | .hbm, ⟨8, _⟩ => ⟨S512x512, .i32⟩
  | .hbm, ⟨9, _⟩ => ⟨S_, .i32⟩
  | .hbm, ⟨10, _⟩ => ⟨S512x512, .i32⟩
  | .hbm, ⟨11, _⟩ => ⟨S512x512, .i1⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512x512, .bf16⟩
  | .hbm, ⟨16, _⟩ => ⟨S32768x512, .f32⟩
  | .hbm, ⟨17, _⟩ => ⟨S32768x512, .f32⟩
  | .hbm, ⟨18, _⟩ => ⟨S64x512x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S2048x512, .f32⟩
  | .local _ .vmem, ⟨4, _⟩ => ⟨S2048x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  transposes_S512x512_S512x512_1_0 : S512x512.Transposes [1, 0] S512x512
  bitsLt_bf16_f32 : FTy.bits .bf16 < FTy.bits .f32
  shapeCasts_S64x512x512_S32768x512 : S64x512x512.ShapeCasts S32768x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S32768x512_S64x512x512 : S32768x512.ShapeCasts S64x512x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S32768x512.size a
  hwx0_2 : ∀ i : grid0.Coords, EltTy.bits .f32 = 32 ∨ (Rect.block (s := S32768x512) S2048x512.size (cc0_transform_2 i) (hinb0_2 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v13) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S512x512, .f32⟩
  | .hbm, ⟨2, _⟩ => ⟨S512, .i32⟩
  | .hbm, ⟨3, _⟩ => ⟨S512x1, .i32⟩
  | .hbm, ⟨4, _⟩ => ⟨S1x512, .i32⟩
  | .hbm, ⟨5, _⟩ => ⟨S512x512, .i32⟩
  | .hbm, ⟨6, _⟩ => ⟨S512x512, .i32⟩
  | .hbm, ⟨7, _⟩ => ⟨S512x512, .i32⟩
  | .hbm, ⟨8, _⟩ => ⟨S512x512, .i32⟩
  | .hbm, ⟨9, _⟩ => ⟨S_, .i32⟩
  | .hbm, ⟨10, _⟩ => ⟨S512x512, .i32⟩
  | .hbm, ⟨11, _⟩ => ⟨S512x512, .i1⟩
  | .hbm, ⟨12, _⟩ => ⟨S512x512, .f32⟩
  | .hbm, ⟨13, _⟩ => ⟨S512x512, .f32⟩
  | .hbm, ⟨14, _⟩ => ⟨S64x512x512, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  dot_S64x512x512_S512x512_S64x512x512_2_1_01_0_n_n_wf : DotDims.WF S64x512x512 S512x512 S64x512x512 [2] [1] [0, 1] [0] [] []

variable [Facts₀]

def dot_S64x512x512_S512x512_S64x512x512_2_1_01_0_n_n : DotDims S64x512x512 S512x512 S64x512x512 where
  lhsContracting := [2]
  rhsContracting := [1]
  lhsNonContracting := [0, 1]
  rhsNonContracting := [0]
  lhsBatch := []
  rhsBatch := []
  wf := dot_S64x512x512_S512x512_S64x512x512_2_1_01_0_n_n_wf

class Facts : Prop extends Facts₀ where

variable [Facts]
-- ==== Proof.BandSpec.lean ====
/-
  The result both programs compute, as one function of the two argument arrays, index by index.

  For x of shape [64, 512, 512] and a weight matrix w of shape [512, 512],
      band x w (b, n, f) = Σ_k x(b, n, k) · w(f, k),
  the contraction of x's last axis with the ROWS of w (w is the adjacency matrix already multiplied by the
  0/1 tridiagonal mask; the mask is never opened here). The same result over the flattened row axis
  r = 512·b + n, against the transposed weights B(k, f) = w(f, k), is
      flat X B (r, f) = Σ_k X(r, k) · B(k, f).
  Reshaping x to [32768, 512], multiplying by the transpose of w and reshaping back is `band x w`: the two
  reshapes keep the row-major position, the transpose swaps the two coordinates, and the summands agree term
  by term — no law of the extended reals is needed, not even commutativity.
-/
import Idealize.ShloMosaic.PureOps.Ideal
import Idealize.ShloMosaic.Lib.ValueIdx
import Idealize.ShloMosaic.Lib.Pipeline.Value

noncomputable section

namespace Cert.Band

open Idealize.ShloMosaic Idealize.ShloMosaic.ValueIdx

/-- [64, 512, 512]: batch, node, time. -/
abbrev X3 : Shape := ⟨3, ![64, 512, 512]⟩
/-- [32768, 512]: the batch and node axes folded into one row axis. -/
abbrev X2 : Shape := ⟨2, ![32768, 512]⟩
/-- [512, 512]: the weights. -/
abbrev W2 : Shape := ⟨2, ![512, 512]⟩

/-- Entry (b, n, f) of the result: row (b, n) of x against row f of w. -/
def bandAt (x : X3.Idx → EReal) (w : W2.Idx → EReal) (b : Fin 64) (n : Fin 512) (f : Fin 512) : EReal :=
  ∑ k : Fin 512, x (ix3 b n k) * w (ix2 f k)

/-- The result array. -/
def band (x : X3.Idx → EReal) (w : W2.Idx → EReal) : X3.Idx → EReal :=
  fun i => bandAt x w (i 0) (i 1) (i 2)

/-- Entry (r, f) of the flattened product: row r of X against column f of B. -/
def flatAt (X : X2.Idx → EReal) (B : W2.Idx → EReal) (r : Fin 32768) (f : Fin 512) : EReal :=
  ∑ k : Fin 512, X (ix2 r k) * B (ix2 k f)

/-- The flattened product. -/
def flat (X : X2.Idx → EReal) (B : W2.Idx → EReal) : X2.Idx → EReal :=
  fun j => flatAt X B (j 0) (j 1)

/-- Row r = 512·b + n of the reshaped x is row (b, n) of x. -/
theorem reshape_row (x : X3.Idx → EReal) (h : X3.ShapeCasts X2) (b : Fin 64) (n : Fin 512) (k : Fin 512)
    (r : Fin 32768) (hr : r.val = b.val * 512 + n.val) :
    shapeCast X2 x h (ix2 r k) = x (ix3 b n k) := by
  refine shapeCast_apply x h (ix2 r k) (ix3 b n k) ?_
  rw [Shape.rowMajor_val_two, Shape.rowMajor_val_three]
  show (b.val * 512 + n.val) * 512 + k.val = r.val * 512 + k.val
  rw [hr]

/-- The transposed weights at (k, f) are the weights at (f, k). -/
theorem transpose_at (w : W2.Idx → EReal) (h : W2.Transposes [1, 0] W2) (k f : Fin 512) :
    transpose W2 [1, 0] w h (ix2 k f) = w (ix2 f k) := by
  refine transpose_apply [1, 0] w h (ix2 k f) (ix2 f k) fun a => ?_
  match a with
  | ⟨0, _⟩ => rfl
  | ⟨1, _⟩ => rfl

/-- Flatten, multiply by the transposed weights, fold back: the contraction with the rows of w. -/
theorem unflatten (x : X3.Idx → EReal) (w : W2.Idx → EReal) (h1 : X3.ShapeCasts X2) (h2 : X2.ShapeCasts X3)
    (ht : W2.Transposes [1, 0] W2) :
    shapeCast X3 (flat (shapeCast X2 x h1) (transpose W2 [1, 0] w ht)) h2 = band x w := by
  funext i
  obtain ⟨b, n, f, rfl⟩ : ∃ (b : Fin 64) (n : Fin 512) (f : Fin 512), i = ix3 b n f := ⟨i 0, i 1, i 2, eq_ix3 i⟩
  have hb : b.val < 64 := b.isLt
  have hn : n.val < 512 := n.isLt
  refine (shapeCast_apply _ h2 (ix3 b n f) (ix2 (⟨b.val * 512 + n.val, by omega⟩ : Fin 32768) f) ?_).trans ?_
  · rw [Shape.rowMajor_val_two, Shape.rowMajor_val_three]
    rfl
  · show (∑ k : Fin 512, shapeCast X2 x h1 (ix2 (⟨b.val * 512 + n.val, _⟩ : Fin 32768) k) * transpose W2 [1, 0] w ht (ix2 k f))
        = ∑ k : Fin 512, x (ix3 b n k) * w (ix2 f k)
    refine Finset.sum_congr rfl fun k _ => ?_
    rw [reshape_row x h1 b n k _ rfl, transpose_at w ht k f]

end Cert.Band

end
-- ==== Proof.KernelHost.lean ====
/-
  What the two arrays the kernel's region reads hold when the region is entered.

  Before the region the program builds the 0/1 tridiagonal mask from an iota, multiplies the adjacency
  matrix by it, transposes the product and rounds it to bf16 — this is the matrix B the region keeps
  resident — and flattens x to [32768, 512]. The mask is carried as one named value and never opened.
-/
import proofs.«107118_j80307298501386_1_alg».proof.Proof.Gen.KernelIdeal.Frame
import Idealize.ShloMosaic.Lib.StableHlo.Run
import Idealize.ShloMosaic.PureOps.Ideal

noncomputable section

namespace Cert.KernelIdeal.Host

open Idealize.ShloMosaic Idealize.ShloMosaic.TcCoe Idealize.SL.Sem Idealize.ShloMosaic.StableHlo
open Cert.KernelIdeal Cert.KernelIdeal.Gen

/-- The tridiagonal mask: 1 at (f, t) when |f − t| = 1, else 0, as the program computes it from an iota. -/
def mask : FVec Ideal S512x512 .f32 :=
  uitofp (F := Ideal) .f32 (cmpi .eq (absi (subi
      (broadcastInDim S512x512 ![0, 1] bcast_S512x1_S512x512_0_1 (broadcastInDim S512x1 ![0] bcast_S512_S512x1_0 (iotaInDim S512 32 0)))
      (broadcastInDim S512x512 ![0, 1] bcast_S1x512_S512x512_0_1 (broadcastInDim S1x512 ![1] bcast_S512_S1x512_1 (iotaInDim S512 32 0)))))
    (broadcastInDim S512x512 ![] bcast_S_S512x512 (constantI S_ 32 1#32)))

variable (m : (ℓ : Loc nD τ sig) → Buf (Elt Ideal) ℓ)

/-- The region finds x flattened to [32768, 512]. -/
theorem flat_x (c : Dev nD) :
    (V m c main_v13 : S32768x512.Idx → EReal)
      = shapeCast S32768x512 (m ((c : Thread nD τ).loc main_arg0) : S64x512x512.Idx → EReal) shapeCasts_S64x512x512_S32768x512 := by
  show StableHlo.after hostOps0 (fun b => m (c, b)) (Proc.devRef .tc main_v13) = _
  after_results
  rfl

/-- The region finds the masked adjacency matrix, transposed (and rounded to bf16, which changes nothing). -/
theorem masked_t (c : Dev nD) :
    (V m c main_v12 : S512x512.Idx → EReal)
      = truncf (F := Ideal) .bf16 (transpose S512x512 [1, 0]
          (mulf (F := Ideal) (m ((c : Thread nD τ).loc main_arg1) : FVec Ideal S512x512 .f32) mask) transposes_S512x512_S512x512_1_0) bitsLt_bf16_f32 := by
  show StableHlo.after hostOps0 (fun b => m (c, b)) (Proc.devRef .tc main_v12) = _
  after_results
  rfl

end Cert.KernelIdeal.Host

end
-- ==== Proof.KernelBody.lean ====
/-
  The kernel body's arithmetic at one entry of its output block.

  The body loads a [2048, 512] block of the flattened x and the whole [512, 512] matrix B, rounds x to bf16
  (the identity on extended reals) and multiplies into a zero accumulator. Entry (p, q) of what it stores is
  therefore Σ_k x(p, k) · B(k, q): the matmul's contraction index runs over the one contracted axis, the left
  operand is read at (p, k) and the right operand at (k, q).
-/
import proofs.«107118_j80307298501386_1_alg».proof.Proof.Gen.KernelIdeal.Skeleton
import proofs.«107118_j80307298501386_1_alg».proof.Proof.BandSpec
import Idealize.ShloMosaic.PureOps.Ideal.Laws
import Idealize.ShloMosaic.Lib.ValueIdx
import Idealize.ShloMosaic.Lib.Pipeline.Value

noncomputable section

namespace Cert.KernelIdeal.Body

open Idealize.ShloMosaic Idealize.ShloMosaic.ValueIdx
open Cert.KernelIdeal Cert.KernelIdeal.Gen

/-- The left operand's row coordinate is the output's. -/
theorem lhs_row (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl

/-- The left operand's column coordinate is the contraction index. -/
theorem lhs_col (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q

/-- The right operand's row coordinate is the contraction index. -/
theorem rhs_row (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q

/-- The right operand's column coordinate is the output's. -/
theorem rhs_col (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- Entry (p, q) of the stored block: row p of the loaded x block against column q of the loaded matrix. -/
theorem pay_at (x0 : Vec Ideal S2048x512 .f32) (x1 : Vec Ideal S512x512 .bf16) (p : Fin 2048) (q : Fin 512) :
    k0_pay1 (F := Ideal) x0 x1 (ix2 p q) = ∑ k : Fin 512, x0 (ix2 p k) * x1 (ix2 k q) := by
  unfold k0_pay1
  rw [shapeCast_self, shapeCast_self]
  refine (Ideal.matmul_constant_zero_apply (φ₁ := .bf16) (φ₂ := .bf16) dot_S2048x512_S512x512_S2048x512_1_0_0_1_n_n none
    (truncf (F := Ideal) .bf16 x0 bitsLt_bf16_f32) x1 (ix2 p q)).trans ?_
  rw [← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p q) ((contrEquiv1 dot_S2048x512_S512x512_S2048x512_1_0_0_1_n_n 512 rfl rfl).symm k) = ix2 p k :=
    funext fun a => Fin.ext (by
      match a with
      | ⟨0, _⟩ => exact lhs_row _ _
      | ⟨1, _⟩ => exact (lhs_col _ _).trans hk)
  have er : dot_S2048x512_S512x512_S2048x512_1_0_0_1_n_n.rhsIdx (ix2 p q) ((contrEquiv1 dot_S2048x512_S512x512_S2048x512_1_0_0_1_n_n 512 rfl rfl).symm k) = ix2 k q :=
    funext fun a => Fin.ext (by
      match a with
      | ⟨0, _⟩ => exact (rhs_row _ _).trans hk
      | ⟨1, _⟩ => exact rhs_col _ _)
  rw [el, er]
  rfl

/-- The same entry when the loaded x block is rows 2048·s … 2048·s + 2047 of a [32768, 512] array X and the loaded
    matrix is B: entry (2048·s + p, q) of the flattened product. -/
theorem pay_block (X : Cert.Band.X2.Idx → EReal) (B : Cert.Band.W2.Idx → EReal)
    (x0 : Vec Ideal S2048x512 .f32) (x1 : Vec Ideal S512x512 .bf16) (s : Nat)
    (h0 : ∀ (y : S2048x512.Idx) (k : S32768x512.Idx), (k 0).val = s * 2048 + (y 0).val → (k 1).val = (y 1).val → x0 y = X k)
    (h1 : x1 = B) (j : S2048x512.Idx) (i : S32768x512.Idx)
    (hi0 : (i 0).val = s * 2048 + (j 0).val) (hi1 : (i 1).val = (j 1).val) :
    k0_pay1 (F := Ideal) x0 x1 j = Cert.Band.flat X B i := by
  obtain ⟨p, q, rfl⟩ : ∃ (p : Fin 2048) (q : Fin 512), j = ix2 p q := ⟨j 0, j 1, eq_ix2 j⟩
  obtain ⟨r, f, rfl⟩ : ∃ (r : Fin 32768) (f : Fin 512), i = ix2 r f := ⟨i 0, i 1, eq_ix2 i⟩
  obtain rfl : f = q := Fin.ext hi1
  rw [pay_at]
  show _ = ∑ k : Fin 512, X (ix2 r k) * B (ix2 k f)
  refine Finset.sum_congr rfl fun k _ => ?_
  rw [h0 (ix2 p k) (ix2 r k) hi0 rfl, h1]

end Cert.KernelIdeal.Body

end
-- ==== Proof.KernelBlocks.lean ====
/-
  From the sixteen row blocks to the whole output array of the region, then through the final reshape.

  Grid point s reads rows 2048·s … 2048·s + 2047 of the flattened x and the whole matrix B, and writes back the
  same rows of the output. What it writes is that row block of the flattened product `flat X B`; the sixteen
  blocks tile the [32768, 512] output (row r lies in block r / 2048), so after the region the output array is
  `flat X B`, and the program's last line reshapes it to [64, 512, 512].
-/
import proofs.«107118_j80307298501386_1_alg».proof.Proof.Gen.KernelIdeal.Frame
import proofs.«107118_j80307298501386_1_alg».proof.Proof.BandSpec
import proofs.«107118_j80307298501386_1_alg».proof.Proof.KernelBody
import proofs.«107118_j80307298501386_1_alg».proof.Proof.KernelHost
import Idealize.ShloMosaic.Lib.Pipeline.Value
import Idealize.ShloMosaic.Lib.StableHlo.Run
import Idealize.ShloMosaic.Lib.ValueIdx

set_option maxRecDepth 16384

noncomputable section

namespace Cert.KernelIdeal.Blocks

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- The block indices at grid point s: the x window and the output window are at row block s, the matrix window
    is always its one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The x block at point t is rows 2048·t … of the flattened x. -/
theorem x_block (c : Dev nD) (t : Fin cfg0.N) (y : S2048x512.Idx) (k : S32768x512.Idx)
    (hk0 : (k 0).val = t.val * 2048 + (y 0).val) (hk1 : (k 1).val = (y 1).val) :
    (iblk m c 0 t : Vec Ideal S2048x512 .f32) y = (V m c main_v13 : S32768x512.Idx → EReal) k := by
  obtain ⟨e0, e1, -⟩ := block_index t
  unfold iblk
  rw [View.read_apply]
  show V m c main_v13 _ = V m c main_v13 _
  refine congrArg (V m c main_v13) (funext fun a => Fin.ext ?_)
  match a with
  | ⟨0, _⟩ => show win0_0.index t (0 : Fin 2) * 2048 + 1 * (y 0).val = (k 0).val; rw [e0, hk0]; omega
  | ⟨1, _⟩ => show win0_0.index t (1 : Fin 2) * 512 + 1 * (y 1).val = (k 1).val; rw [e1, hk1]; omega

/-- The matrix block at every point is the whole matrix. -/
theorem b_block (c : Dev nD) (t : Fin cfg0.N) :
    (iblk m c 1 t : Vec Ideal S512x512 .bf16) = (V m c main_v12 : S512x512.Idx → EReal) := by
  obtain ⟨-, -, e2, e3, -⟩ := block_index t
  funext y
  unfold iblk
  rw [View.read_apply]
  show V m c main_v12 _ = V m c main_v12 _
  refine congrArg (V m c main_v12) (funext fun a => Fin.ext ?_)
  match a with
  | ⟨0, _⟩ => show win0_1.index t (0 : Fin 2) * 512 + 1 * (y 0).val = (y 0).val; rw [e2]; omega
  | ⟨1, _⟩ => show win0_1.index t (1 : Fin 2) * 512 + 1 * (y 1).val = (y 1).val; rw [e3]; omega

/-- What point t writes back is row block t of the flattened product. -/
theorem flushed_eq (c : Dev nD) (t : Fin cfg0.N) :
    (dats m 0 c).flushed 2 t
      = ((cfg0.win 2).blk t).view.read (Elt Ideal) (Cert.Band.flat (V m c main_v13) (V m c main_v12)) := by
  show (cfg0.win 2).cut (grid0.coords t) ((dats m 0 c).after 2 t) = _
  rw [after0_2]
  unfold out0_2
  rw [View.canon_unit_zero zero_offsets]
  simp only [View.ld_unit_zero (S := S2048x512) zero_offsets, View.ld_unit_zero (S := S512x512) zero_offsets]
  obtain ⟨-, -, -, -, e4, e5⟩ := block_index t
  funext j
  show k0_pay1 (F := Ideal) (iblk m c 0 t) (iblk m c 1 t) j
      = Cert.Band.flat (V m c main_v13) (V m c main_v12) (((cfg0.win 2).blk t).view.emb j)
  refine Cert.KernelIdeal.Body.pay_block (V m c main_v13) (V m c main_v12) (iblk m c 0 t) (iblk m c 1 t) t.val
    (x_block m c t) (b_block m c t) j (((cfg0.win 2).blk t).view.emb j) ?_ ?_
  · show win0_2.index t (0 : Fin 2) * 2048 + 1 * (j 0).val = t.val * 2048 + (j 0).val
    rw [e4]; omega
  · show win0_2.index t (1 : Fin 2) * 512 + 1 * (j 1).val = (j 1).val
    rw [e5]; omega

/-- An index of the output array is in point t's block iff each coordinate is in the block's range. -/
theorem mem_blk (t : Fin cfg0.N) (i : S32768x512.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v14).slice (win0_2.rect t)).set ↔ _
  rw [View.set_slice_whole, Rect.mem_set_unit]
  exact Iff.rfl

/-- Row r of the output lies in the block of point r / 2048. -/
theorem cover (i : S32768x512.Idx) :
    ∃ t : Fin cfg0.N, (cfg0.win 2).flush t = true ∧ i ∈ ((cfg0.win 2).blk t).view.set := by
  have h0 : (i 0).val < 32768 := idx2_lt0 i
  have h1 : (i 1).val < 512 := idx2_lt1 i
  have hN : cfg0.N = 16 := N_0
  have hlt : (i 0).val / 2048 < cfg0.N := by rw [hN]; omega
  obtain ⟨-, -, -, -, e4, e5⟩ := block_index ⟨(i 0).val / 2048, hlt⟩
  refine ⟨⟨(i 0).val / 2048, hlt⟩, flush0_2 _, ?_⟩
  rw [mem_blk]
  intro a
  match a with
  | ⟨0, _⟩ =>
    show win0_2.index ⟨(i 0).val / 2048, hlt⟩ (0 : Fin 2) * 2048 ≤ (i 0).val ∧ (i 0).val < win0_2.index ⟨(i 0).val / 2048, hlt⟩ (0 : Fin 2) * 2048 + 2048
    rw [e4]
    show (i 0).val / 2048 * 2048 ≤ (i 0).val ∧ (i 0).val < (i 0).val / 2048 * 2048 + 2048
    omega
  | ⟨1, _⟩ =>
    show win0_2.index ⟨(i 0).val / 2048, hlt⟩ (1 : Fin 2) * 512 ≤ (i 1).val ∧ (i 1).val < win0_2.index ⟨(i 0).val / 2048, hlt⟩ (1 : Fin 2) * 512 + 512
    rw [e5]
    omega

/-- After the region the output array is the flattened product. -/
theorem region_out (c : Dev nD) :
    (dats m 0 c).arrAt 2 cfg0.N = Cert.Band.flat (V m c main_v13) (V m c main_v12) :=
  (dats m 0 c).arrAt_eq_of_cover 2 (Cert.Band.flat (V m c main_v13) (V m c main_v12)) (fun t _ => flushed_eq m c t) cover

/-- The program's result: the region's output reshaped to [64, 512, 512]. -/
theorem result_eq (c : Dev nD) :
    (Pipeline.afterTail₀ cfgs (dats m) 0 (V0 m) [hostOps1] c main_v15 : S64x512x512.Idx → EReal)
      = shapeCast S64x512x512 (Cert.Band.flat (V m c main_v13) (V m c main_v12)) shapeCasts_S32768x512_S64x512x512 := by
  unfold Pipeline.afterTail₀
  show StableHlo.after hostOps1 _ (Proc.devRef .tc main_v15) = _
  after_results
  rw [show Pipeline.withArrays (cfgs 0).spec c (V0 m c) (fun w => (dats m 0 c).arrAt w (cfgs 0).N) (Proc.devRef .tc main_v14)
      = Cert.Band.flat (V m c main_v13) (V m c main_v12) from
    (Pipeline.withArrays_arr spec0 launch0.win.arr_inj c (V0 m c) (fun w => (dats m 0 c).arrAt w (cfgs 0).N) 2).trans (region_out m c)]
  rfl

/-- The kernel program's run, read: the result is the reshaped product of the flattened x with the transposed
    masked adjacency matrix, and the arguments end unchanged. -/
theorem run : θ_run defs (onTc (τ := τ) (main (F := Ideal))) ⟨m, fun _ => 0, ρ⟩ fun r => ∀ c : Dev nD,
      r.2.mem ((c.tc : Thread nD τ).loc main_v15)
        = shapeCast S64x512x512 (Cert.Band.flat
            (shapeCast S32768x512 (m ((c : Thread nD τ).loc main_arg0) : S64x512x512.Idx → EReal) shapeCasts_S64x512x512_S32768x512)
            (truncf (F := Ideal) .bf16 (transpose S512x512 [1, 0]
              (mulf (F := Ideal) (m ((c : Thread nD τ).loc main_arg1) : FVec Ideal S512x512 .f32) Cert.KernelIdeal.Host.mask) transposes_S512x512_S512x512_1_0) bitsLt_bf16_f32))
          shapeCasts_S32768x512_S64x512x512
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v15 (Pipeline.mem_restRefs_of main_v15 (by decide) (by decide))).trans
        ((result_eq m c).trans (by rw [Cert.KernelIdeal.Host.flat_x m c, Cert.KernelIdeal.Host.masked_t m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Blocks

end
-- ==== Proof.RefRead.lean ====
/-
  The reference's result as the contraction `band`.

  jnp's einsum 'ft,bnt->bnf' prints as one dot_general contracting x's last axis with the masked adjacency
  matrix's second axis: entry (b, n, f) is Σ_k x(b, n, k) · masked(f, k), which is `band x masked` by
  definition — the left operand is read at (b, n, k), the right at (f, k).
-/
import proofs.«107118_j80307298501386_1_alg».proof.Proof.Gen.ReferenceIdeal.Read
import proofs.«107118_j80307298501386_1_alg».proof.Proof.BandSpec

noncomputable section

namespace Cert.ReferenceIdeal.Band

open Idealize.ShloMosaic Idealize.ShloMosaic.ValueIdx
open Cert.ReferenceIdeal Cert.ReferenceIdeal.Read

/-- The reference's result is the contraction of x with the rows of the masked adjacency matrix. -/
theorem result_eq (x0 : (⟨S64x512x512, .f32⟩ : BufTy).Contents (Elt Ideal)) (x1 : (⟨S512x512, .f32⟩ : BufTy).Contents (Elt Ideal)) :
    val_main_v11 (F := Ideal) x0 x1 = Cert.Band.band x0 (val_main_v10 (F := Ideal) x1) := by
  funext i
  rw [val_main_v11_apply]
  show _ = ∑ k : Fin 512, x0 (ix3 (i 0) (i 1) k) * val_main_v10 (F := Ideal) x1 (ix2 (i 2) k)
  refine Finset.sum_congr rfl fun k _ => ?_
  have el : lidx_main_v11 i k = ix3 (i 0) (i 1) k := funext fun a => by
    match a with
    | ⟨0, _⟩ => rfl
    | ⟨1, _⟩ => rfl
    | ⟨2, _⟩ => rfl
  have er : ridx_main_v11 i k = ix2 (i 2) k := funext fun a => by
    match a with
    | ⟨0, _⟩ => rfl
    | ⟨1, _⟩ => rfl
  rw [el, er]
  rfl

end Cert.ReferenceIdeal.Band

end
-- ==== Proof.lean ====
/-
  Masked tridiagonal adjacency product along the time axis: out(b, n, f) = Σ_t (adj(f, t) · mask(f, t)) · x(b, n, t),
  mask(f, t) = 1 when |f − t| = 1 and 0 otherwise.

  The kernel program builds the masked matrix, transposes it, flattens x to [32768, 512], multiplies sixteen
  [2048, 512] row blocks by the resident [512, 512] matrix on the matrix unit (bf16 operands, f32 accumulation),
  and reshapes the product back to [64, 512, 512]. The reference builds the same masked matrix and contracts x's
  last axis with its rows in one dot_general. On the extended reals a change of float format is the identity and
  both matrix products are plain sums, so both results are, entry by entry,
      Σ_k x(b, n, k) · (adj · mask)(f, k)
  with the factors in the same order: the two reshapes and the transpose only rename indices. The mask is the same
  integer computation in both programs and is never opened; no finiteness of the inputs is used.

  Modules: BandSpec (the result as one function, and flatten–multiply–fold back is that function), KernelBody (the
  body's arithmetic at an entry), KernelHost (what the region's two input arrays hold), KernelBlocks (blocks to
  the whole array, the last reshape, the kernel program's run), RefRead (the reference's result is that function).
-/
import proofs.«107118_j80307298501386_1_alg».proof.Defs
import proofs.«107118_j80307298501386_1_alg».proof.Proof.Gen.Kernel
import proofs.«107118_j80307298501386_1_alg».proof.Proof.Gen.Kernel.Frame
import proofs.«107118_j80307298501386_1_alg».proof.Proof.Gen.KernelIdeal
import proofs.«107118_j80307298501386_1_alg».proof.Proof.Gen.KernelIdeal.Frame
import proofs.«107118_j80307298501386_1_alg».proof.Proof.Gen.ReferenceIdeal
import proofs.«107118_j80307298501386_1_alg».proof.Proof.Gen.ReferenceIdeal.Run
import proofs.«107118_j80307298501386_1_alg».proof.Proof.Gen.ReferenceIdeal.Read
import proofs.«107118_j80307298501386_1_alg».proof.Proof.Gen.Pre_finite_inputs
import proofs.«107118_j80307298501386_1_alg».proof.Proof.BandSpec
import proofs.«107118_j80307298501386_1_alg».proof.Proof.KernelHost
import proofs.«107118_j80307298501386_1_alg».proof.Proof.KernelBlocks
import proofs.«107118_j80307298501386_1_alg».proof.Proof.RefRead
import Idealize.ShloMosaic.Adequacy
import Idealize.ShloMosaic.Init

noncomputable section

namespace Cert.Proof

open Idealize.ShloMosaic Idealize.ShloMosaic.TcCoe Idealize.SL.Sem

/-- Both programs compute the mask by the same integer operations on the same iota. -/
theorem mask_same : Cert.ReferenceIdeal.Read.val_main_v9 (F := Ideal) = Cert.KernelIdeal.Host.mask := rfl

/-- The kernel program's result is the contraction of x with the rows of the masked adjacency matrix: rounding to
    bf16 is the identity, and flatten–multiply by the transpose–fold back is that contraction. -/
theorem kernel_result (x : Cert.Band.X3.Idx → EReal) (a : Cert.Band.W2.Idx → EReal) :
    shapeCast Cert.KernelIdeal.S64x512x512 (Cert.Band.flat
        (shapeCast Cert.KernelIdeal.S32768x512 x Cert.KernelIdeal.Facts₀.shapeCasts_S64x512x512_S32768x512)
        (truncf (F := Ideal) .bf16 (transpose Cert.KernelIdeal.S512x512 [1, 0]
          (mulf (F := Ideal) (a : FVec Ideal Cert.KernelIdeal.S512x512 .f32) Cert.KernelIdeal.Host.mask)
          Cert.KernelIdeal.Facts₀.transposes_S512x512_S512x512_1_0) Cert.KernelIdeal.Facts₀.bitsLt_bf16_f32))
      Cert.KernelIdeal.Facts₀.shapeCasts_S32768x512_S64x512x512
    = Cert.Band.band x (mulf (F := Ideal) (a : FVec Ideal Cert.KernelIdeal.S512x512 .f32) Cert.KernelIdeal.Host.mask) :=
  (congrArg (fun B : Cert.Band.W2.Idx → EReal => shapeCast Cert.KernelIdeal.S64x512x512 (Cert.Band.flat
        (shapeCast Cert.KernelIdeal.S32768x512 x Cert.KernelIdeal.Facts₀.shapeCasts_S64x512x512_S32768x512) B)
      Cert.KernelIdeal.Facts₀.shapeCasts_S32768x512_S64x512x512) (funext fun _ => rfl)).trans
    (Cert.Band.unflatten x (mulf (F := Ideal) (a : FVec Ideal Cert.KernelIdeal.S512x512 .f32) Cert.KernelIdeal.Host.mask)
      Cert.KernelIdeal.Facts₀.shapeCasts_S64x512x512_S32768x512 Cert.KernelIdeal.Facts₀.shapeCasts_S32768x512_S64x512x512
      Cert.KernelIdeal.Facts₀.transposes_S512x512_S512x512_1_0)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => ⟨(h c).2.1, (h c).2.2⟩) (Cert.ReferenceIdeal.Value.run (F := Ideal) m ρ)

/-- The idealized kernel program is the kernel program's own text read on the extended reals: nothing was rewritten,
    so there is nothing to preserve. -/
theorem preserves : Cert.preserves_Kernel_KernelIdeal := trivial

/-- From memories agreeing on x and the adjacency matrix, both programs end with the contraction of x with the rows
    of the masked adjacency matrix. -/
theorem algebraic : Cert.algebraic_KernelIdeal_ReferenceIdeal := by
  intro m ρ m' ρ' _ hagree
  refine ⟨fun c => Cert.Band.band (m ((c.tc : Thread Cert.KernelIdeal.nD Cert.KernelIdeal.τ).loc Cert.KernelIdeal.main_arg0))
      (mulf (F := Ideal) (m ((c.tc : Thread Cert.KernelIdeal.nD Cert.KernelIdeal.τ).loc Cert.KernelIdeal.main_arg1) : FVec Ideal Cert.KernelIdeal.S512x512 .f32) Cert.KernelIdeal.Host.mask), ?_, ?_⟩
  · exact (θ_run Cert.KernelIdeal.defs _ _).mono (fun _ h c => ⟨(h c).1.trans (kernel_result _ _), (h c).2⟩)
      (Cert.KernelIdeal.Blocks.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, Cert.ReferenceIdeal.Band.result_eq, (hagree c).1, (hagree c).2]
    unfold Cert.ReferenceIdeal.Read.val_main_v10
    rw [mask_same]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
